-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S32x3 : Shape := ⟨2, ![32, 3]⟩
abbrev S8x3x128x512 : Shape := ⟨4, ![8, 3, 128, 512]⟩
abbrev S8x3 : Shape := ⟨2, ![8, 3]⟩
abbrev S8x3x128 : Shape := ⟨3, ![8, 3, 128]⟩
abbrev S_ : Shape := ⟨0, ![]⟩

abbrev nBuf : Space → Nat
  | .hbm => 5
  | .vmem => 9
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3, .f32⟩
  | .hbm, ⟨3, _⟩ => ⟨S_, .f32⟩
  | .hbm, ⟨4, _⟩ => ⟨S_, .f32⟩
  | .local _ .vmem, ⟨0, _⟩ => ⟨S8x3x128x512, .f32⟩
  | .local _ .vmem, ⟨1, _⟩ => ⟨S8x3x128x512, .f32⟩
  | .local _ .vmem, ⟨2, _⟩ => ⟨S8x3x128x512, .f32⟩
  | .local _ .vmem, ⟨3, _⟩ => ⟨S8x3x128x512, .f32⟩
  | .local _ .vmem, ⟨4, _⟩ => ⟨S8x3, .f32⟩
  | .local _ .vmem, ⟨5, _⟩ => ⟨S8x3, .f32⟩
  | .local _ .vmem, ⟨6, _⟩ => ⟨S8x3, .f32⟩
  | .local _ .vmem, ⟨7, _⟩ => ⟨S8x3, .f32⟩
  | .local _ .vmem, ⟨8, _⟩ => ⟨S8x3, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_25 : BitVec 32 := 0#32
  let v30 : BitVec 1 := Scalar.cmpi .ne v29 c0_i32_25
  v30

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x3_S8x3_0_0 : ∀ a, (![0, 0] : Fin 2 → Nat) a + S8x3.size a ≤ S8x3.size a
  h_S8x3 : 0 < S8x3.numel
  shapeCasts_S8x3_S8x3 : S8x3.ShapeCasts S8x3
  inb_S8x3x128x512_S8x3x128x512_0_0_0_0 : ∀ a, (![0, 0, 0, 0] : Fin 4 → Nat) a + S8x3x128x512.size a ≤ S8x3x128x512.size a
  h_S8x3x128x512 : 0 < S8x3x128x512.numel
  reduces_S8x3x128x512_S8x3x128 : S8x3x128x512.Reduces [3] S8x3x128
  reduces_S8x3x128_S8x3 : S8x3x128.Reduces [2] S8x3
  reducesTo_S32x3_S_d0_1 : S32x3.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x128x512.size a ≤ S32x3x512x512.size a
  hwx0_0 : ∀ i : grid0.Coords, EltTy.bits .f32 = 32 ∨ (Rect.block (s := S32x3x512x512) S8x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x128x512.size a ≤ S32x3x512x512.size a
  hwx0_1 : ∀ i : grid0.Coords, EltTy.bits .f32 = 32 ∨ (Rect.block (s := S32x3x512x512) S8x3x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S32x3.size a
  hwx0_2 : ∀ i : grid0.Coords, EltTy.bits .f32 = 32 ∨ (Rect.block (s := S32x3) S8x3.size (cc0_transform_2 i) (hinb0_2 i)).WholeWords (EltTy.packing .f32)

variable [Facts₀]

abbrev win0_0 : Pipeline.Window sig grid0 :=
  Pipeline.Window.ofSpec (Memref.whole main_arg0) S8x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩
abbrev S32x3 : Shape := ⟨2, ![32, 3]⟩

abbrev nBuf : Space → Nat
  | .hbm => 28
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3, .f32⟩
  | .hbm, ⟨4, _⟩ => ⟨S_, .f32⟩
  | .hbm, ⟨5, _⟩ => ⟨S32x3, .f32⟩
  | .hbm, ⟨6, _⟩ => ⟨S32x3x512x512, .f32⟩
  | .hbm, ⟨7, _⟩ => ⟨S32x3x512x512, .f32⟩
  | .hbm, ⟨8, _⟩ => ⟨S_, .f32⟩
  | .hbm, ⟨9, _⟩ => ⟨S32x3, .f32⟩
  | .hbm, ⟨10, _⟩ => ⟨S_, .f32⟩
  | .hbm, ⟨11, _⟩ => ⟨S32x3, .f32⟩
  | .hbm, ⟨12, _⟩ => ⟨S32x3, .f32⟩
  | .hbm, ⟨13, _⟩ => ⟨S32x3, .f32⟩
  | .hbm, ⟨14, _⟩ => ⟨S32x3, .f32⟩
  | .hbm, ⟨15, _⟩ => ⟨S_, .f32⟩
  | .hbm, ⟨16, _⟩ => ⟨S32x3, .f32⟩
  | .hbm, ⟨17, _⟩ => ⟨S32x3, .f32⟩
  | .hbm, ⟨18, _⟩ => ⟨S32x3, .f32⟩
  | .hbm, ⟨19, _⟩ => ⟨S32x3, .f32⟩
  | .hbm, ⟨20, _⟩ => ⟨S32x3, .f32⟩
  | .hbm, ⟨21, _⟩ => ⟨S_, .f32⟩
  | .hbm, ⟨22, _⟩ => ⟨S32x3, .f32⟩
  | .hbm, ⟨23, _⟩ => ⟨S32x3, .f32⟩
  | .hbm, ⟨24, _⟩ => ⟨S32x3, .f32⟩
  | .hbm, ⟨25, _⟩ => ⟨S32x3, .f32⟩
  | .hbm, ⟨26, _⟩ => ⟨S_, .f32⟩
  | .hbm, ⟨27, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S32x3x512x512_S32x3_d2_3 : S32x3x512x512.ReducesTo [2, 3] S32x3
  h_S_ : 0 < S_.numel
  bcast_S_S32x3 : S_.BroadcastsInDim S32x3 (![] : Fin 0 → Fin S32x3.rank)
  reducesTo_S32x3_S_d0_1 : S32x3.ReducesTo [0, 1] S_

variable [Facts₀]

class Facts : Prop extends Facts₀ where

variable [Facts]
-- ==== Proof.Spec.lean ====
/-
  The common value of the two programs, as one function of the two argument arrays
  x, y : [32, 3, 512, 512] over the extended reals.

  For each image plane (b, c) three plane sums are taken over the 512 x 512 positions:
      P  = sum of x,      Gt = sum of y,      Sq = sum of (x - y) * (x - y).
  The plane's contribution is
      (Sq * 2^-18) * exp (2 * log1p (|P - Gt| / |Gt + 1|)),
  and the result is zero plus the sum of the 96 contributions.

  Two laws join the two programs to this form.  A sum over the 512 rows of a plane is the sum, over
  four consecutive bands of 128 rows, of the bands' sums: addition of extended reals is commutative
  and associative, so no finiteness is needed.  And the quotient by 2^18 is the product with 2^-18
  at every extended real, the infinities included.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An argument array: 32 batches, 3 channels, 512 rows, 512 columns. -/
abbrev Arr := (⟨4, ![32, 3, 512, 512]⟩ : Shape).Idx → EReal

/-- The sum of plane (b, c) over its rows and columns. -/
def planeSum (x : Arr) (b : Fin 32) (c : Fin 3) : EReal :=
  ∑ h : Fin 512, ∑ w : Fin 512, x (ix4 b c h w)

/-- The squared difference, position by position. -/
def sqDiff (x y : Arr) : Arr := fun i => (x i - y i) * (x i - y i)

/-- The words of the float constants: one, two, the count 2^18 of a plane's positions (the reference
    divides by it) and its reciprocal 2^-18 (the kernel multiplies by it). -/
abbrev wOne : EReal := Ideal.ofBits .f32 0x3F800000#32
abbrev wTwo : EReal := Ideal.ofBits .f32 0x40000000#32
abbrev wInvCount : EReal := Ideal.ofBits .f32 0x36800000#32
abbrev wCount : EReal := Ideal.ofBits .f32 0x48800000#32

/-- One plane's contribution from its three sums: the mean squared difference times the focal weight
    exp (2 * log1p (|P - Gt| / |Gt + 1|)), where |a| is max a (-a). -/
def weighted (P Gt Sq : EReal) : EReal :=
  (Sq * wInvCount) *
    Ideal.exp (wTwo * Ideal.log1p (Ideal.div (max (P - Gt) (-(P - Gt))) (max (Gt + wOne) (-(Gt + wOne)))))

/-- Plane (j 0, j 1)'s contribution. -/
def perPlane (x y : Arr) (j : (⟨2, ![32, 3]⟩ : Shape).Idx) : EReal :=
  weighted (planeSum x (j 0) (j 1)) (planeSum y (j 0) (j 1)) (planeSum (sqDiff x y) (j 0) (j 1))

/-- The result: zero plus the sum of the planes' contributions. -/
def total (x y : Arr) : EReal :=
  Ideal.ofBits .f32 0x00000000#32 + ∑ j : (⟨2, ![32, 3]⟩ : Shape).Idx, perPlane x y j

/-! ## Rows in four bands of 128 -/

/-- Row r of band j. -/
def bandRow (j : Fin 4) (r : Fin 128) : Fin 512 := ⟨128 * j.val + r.val, by omega⟩

/-- A row is a band and a row within the band: h = 128 * (h / 128) + h % 128. -/
def bandEquiv : Fin 4 × Fin 128 ≃ Fin 512 where
  toFun p := bandRow p.1 p.2
  invFun h := (⟨h.val / 128, by have := h.isLt; omega⟩, ⟨h.val % 128, by omega⟩)
  left_inv p := by
    obtain ⟨j, r⟩ := p
    have hj := j.isLt
    have hr := r.isLt
    apply Prod.ext <;> apply Fin.ext <;> simp only [bandRow] <;> omega
  right_inv h := by
    apply Fin.ext
    simp only [bandRow]
    omega

/-- A sum over the 512 rows is the sum over the four bands of each band's sum. -/
theorem sum_rows_eq_sum_bands (g : Fin 512 → EReal) :
    ∑ h : Fin 512, g h = ∑ j : Fin 4, ∑ r : Fin 128, g (bandRow j r) := by
  rw [← Equiv.sum_comp bandEquiv g, Fintype.sum_prod_type]
  rfl

/-- The four bands added one after the other onto zero, as the kernel's accumulator does, give the
    sum over all rows. -/
theorem bands_chain (g : Fin 512 → EReal) :
    (((Ideal.ofBits .f32 0x00000000#32 + ∑ r : Fin 128, g (bandRow 0 r)) + ∑ r : Fin 128, g (bandRow 1 r))
        + ∑ r : Fin 128, g (bandRow 2 r)) + ∑ r : Fin 128, g (bandRow 3 r)
      = ∑ h : Fin 512, g h := by
  rw [sum_rows_eq_sum_bands, Fin.sum_univ_four, Ideal.ofBits_zero_f32, zero_add]

/-! ## The count of a plane's positions and its reciprocal -/

theorem wCount_eq : wCount = ((262144 : ℝ) : EReal) := by
  simp [wCount, Ideal.ofBits, Ideal.ieee, -EReal.coe_mul]; norm_num

theorem wInvCount_eq : wInvCount = ((1 / 262144 : ℝ) : EReal) := by
  simp [wInvCount, Ideal.ofBits, Ideal.ieee, -EReal.coe_mul]; norm_num

/-- Dividing by 2^18 is multiplying by 2^-18, at every extended real. -/
theorem div_count (s : EReal) : Ideal.div s wCount = s * wInvCount := by
  rw [wCount_eq, wInvCount_eq, Ideal.div_coe (by norm_num : (262144 : ℝ) ≠ 0)]

end Cert.Spec

end
-- ==== Proof.RefValue.lean ====
/-
  The reference's result is the specification's total.

  The reference sums each argument, and the squared difference, over the rows and columns of every plane with one
  two-axis sum; such a sum at (b, c) runs over the indices of the array whose first two coordinates are (b, c), and
  those are exactly the (b, c, h, w) for h, w over the rows and columns.  It then divides the squared-difference
  sum by 2^18 (the product with 2^-18 on every extended real), forms the focal weight position by position, and
  adds up the 96 products starting from zero.
-/
import proofs.«168246_j83459804495948_2_alg».proof.Proof.Gen.ReferenceIdeal.Read
import proofs.«168246_j83459804495948_2_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

open Idealize.ShloMosaic Idealize.ShloMosaic.ValueIdx

namespace Cert.ReferenceIdeal.RefValue

open Cert.ReferenceIdeal Cert.ReferenceIdeal.Gen Cert.ReferenceIdeal.Read Cert.Spec

/-- The positions of plane (b, c), as indices of the array. -/
def planeEmb (b : Fin 32) (c : Fin 3) : Fin 512 × Fin 512 ↪ S32x3x512x512.Idx :=
  ⟨fun p => ix4 b c p.1 p.2, fun p p' h => Prod.ext (congrFun h 2) (congrFun h 3)⟩

/-- The indices a sum over the last two axes collects at (b, c) are the positions of plane (b, c). -/
theorem filter_drop_eq_plane (b : Fin 32) (c : Fin 3) :
    Finset.univ.filter (fun i : S32x3x512x512.Idx => reducesTo_S32x3x512x512_S32x3_d2_3.drop i = ix2 b c)
      = Finset.univ.map (planeEmb b c) := by
  ext i
  simp only [Finset.mem_filter, Finset.mem_univ, true_and, Finset.mem_map, planeEmb, Function.Embedding.coeFn_mk]
  constructor
  · intro h
    refine ⟨(i 2, i 3), ?_⟩
    have h0 : (i 0 : Nat) = b.val :=
      (Shape.ReducesTo.drop_apply_val_of_eq reducesTo_S32x3x512x512_S32x3_d2_3 i 0 0).symm.trans (congrArg Fin.val (congrFun h 0))
    have h1 : (i 1 : Nat) = c.val :=
      (Shape.ReducesTo.drop_apply_val_of_eq reducesTo_S32x3x512x512_S32x3_d2_3 i 1 1).symm.trans (congrArg Fin.val (congrFun h 1))
    funext a
    apply Fin.ext
    match a with
    | ⟨0, _⟩ => exact h0.symm
    | ⟨1, _⟩ => exact h1.symm
    | ⟨2, _⟩ => rfl
    | ⟨3, _⟩ => rfl
  · rintro ⟨p, rfl⟩
    funext a
    apply Fin.ext
    match a with
    | ⟨0, _⟩ => exact Shape.ReducesTo.drop_apply_val_of_eq reducesTo_S32x3x512x512_S32x3_d2_3 _ 0 0
    | ⟨1, _⟩ => exact Shape.ReducesTo.drop_apply_val_of_eq reducesTo_S32x3x512x512_S32x3_d2_3 _ 1 1

/-- The host's sum over the last two axes, at (b, c): the initial value plus the plane's sum. -/
theorem hostPlaneSum (x : Arr) (init : EReal) (b : Fin 32) (c : Fin 3) :
    Ideal.hostReduceAdd reducesTo_S32x3x512x512_S32x3_d2_3 x init (ix2 b c) = init + planeSum x b c := by
  unfold Ideal.hostReduceAdd planeSum
  rw [filter_drop_eq_plane, Finset.sum_map, Fintype.sum_prod_type]
  rfl

/-- The two plane sums and the squared-difference plane sum, as the reference takes them. -/
theorem v0_apply (x0 : Arr) (b : Fin 32) (c : Fin 3) :
    val_main_v0 (F := Ideal) x0 (ix2 b c) = Ideal.ofBits .f32 0x00000000#32 + planeSum x0 b c :=
  (hostReduceAdd_apply x0 _ _ _ _).trans (hostPlaneSum x0 _ b c)

theorem v1_apply (x1 : Arr) (b : Fin 32) (c : Fin 3) :
    val_main_v1 (F := Ideal) x1 (ix2 b c) = Ideal.ofBits .f32 0x00000000#32 + planeSum x1 b c :=
  (hostReduceAdd_apply x1 _ _ _ _).trans (hostPlaneSum x1 _ b c)

theorem v4_apply (x0 x1 : Arr) (b : Fin 32) (c : Fin 3) :
    val_main_v4 (F := Ideal) x0 x1 (ix2 b c) = Ideal.ofBits .f32 0x00000000#32 + planeSum (sqDiff x0 x1) b c :=
  (hostReduceAdd_apply (val_main_v3 (F := Ideal) x0 x1) _ _ _ _).trans (hostPlaneSum _ _ b c)

/-- Each of the 96 products the reference adds up is the specification's contribution of that plane. -/
theorem v17_apply (x0 x1 : Arr) (j : S32x3.Idx) :
    val_main_v17 (F := Ideal) x0 x1 j = perPlane x0 x1 j := by
  obtain ⟨b, c, rfl⟩ : ∃ (b : Fin 32) (c : Fin 3), j = ix2 b c := ⟨j 0, j 1, eq_ix2 j⟩
  rw [val_main_v17_apply, val_main_v6_apply, val_main_v16_apply, val_main_v15_apply, val_main_v14_apply,
    val_main_cst_4_apply, val_main_v13_apply, val_main_v12_apply, val_main_v8_apply, val_main_v7_apply,
    val_main_v11_apply, val_main_v10_apply, val_main_v9_apply, val_main_cst_3_apply, val_main_v5_apply,
    val_main_cst_2_apply, v0_apply, v1_apply, v4_apply]
  simp only [Ideal.ofBits_zero_f32, zero_add, Ideal.mulf_def, Ideal.subf_def, Ideal.addf_def, Ideal.hostDivf_def,
    Ideal.hostAbsf_def, Ideal.absf_def, Ideal.hostUnary_log1p_def, Ideal.hostUnary_exp_def, Ideal.ofBits_def]
  rw [show Ideal.ofBits .f32 0x48800000#32 = wCount from rfl, div_count]
  rfl

/-- The reference's result, at its one index, is the total. -/
theorem result_eq (x0 x1 : Arr) : val_main_v18 (F := Ideal) x0 x1 = fun _ => total x0 x1 := by
  funext i
  rw [val_main_v18_apply]
  unfold total
  exact congrArg (fun z => Ideal.ofBits .f32 0x00000000#32 + z) (Finset.sum_congr rfl fun j _ => v17_apply x0 x1 j)

end Cert.ReferenceIdeal.RefValue

end
-- ==== Proof.KernelPayloads.lean ====
/-
  The kernel body's payloads read at an index, on the extended reals.

  A block of an argument is an [8, 3, 128, 512] array: 8 batches, 3 channels, one band of 128 rows, 512 columns.
  The body sums a block over its columns and then over its rows, which gives, at (p, q), the band's share of plane
  (p, q)'s sum.  The three accumulating payloads add that share (of x, of y, of the squared difference) to the
  scratch; the zeroing payloads are zero; the final payload combines the three scratches position by position.
-/
import proofs.«168246_j83459804495948_2_alg».proof.Proof.Gen.KernelIdeal.Skeleton
import proofs.«168246_j83459804495948_2_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Payloads

open Cert.KernelIdeal Cert.KernelIdeal.Gen Cert.Spec

/-- A block of an argument, and a block of plane sums, on the extended reals. -/
abbrev Blk := Vec Ideal S8x3x128x512 .f32
abbrev Acc := Vec Ideal S8x3 .f32

/-- The band's share of plane (p, q)'s sum: the block summed over its 128 rows and 512 columns. -/
def bandSum (x : Blk) (p : Fin 8) (q : Fin 3) : EReal := ∑ r : Fin 128, ∑ k : Fin 512, x (ix4 p q r k)

/-- The squared difference of two blocks, position by position. -/
def sqBlk (x0 x1 : Blk) : Blk := fun i => (x0 i - x1 i) * (x0 i - x1 i)

/-- The column sum followed by the row sum of a block, at (p, q), is the double sum over the band. -/
theorem reduce_rows_cols (x : FVec Ideal S8x3x128x512 .f32) (p : Fin 8) (q : Fin 3) :
    multiReduction .add [2] S8x3
        (multiReduction .add [3] S8x3x128 x 0x00000000#32 reduces_S8x3x128x512_S8x3x128 (.inl rfl) rfl)
        0x00000000#32 reduces_S8x3x128_S8x3 (.inl rfl) rfl (ix2 p q)
      = ∑ r : Fin 128, ∑ k : Fin 512, x (ix4 p q r k) := by
  refine (Ideal.multiReduction_add_single _ 0x00000000#32 reduces_S8x3x128_S8x3 (.inl rfl) rfl (ix2 p q)).trans ?_
  refine Finset.sum_congr rfl fun r _ => ?_
  refine (Ideal.multiReduction_add_single x 0x00000000#32 reduces_S8x3x128x512_S8x3x128 (.inl rfl) rfl _).trans ?_
  refine Finset.sum_congr rfl fun k _ => congrArg x ?_
  funext a
  apply Fin.ext
  match a with
  | ⟨0, _⟩ => rfl
  | ⟨1, _⟩ => rfl
  | ⟨2, _⟩ => rfl
  | ⟨3, _⟩ => rfl

/-- The payload that adds a block of x to the first scratch. -/
theorem pay6_apply (x : Blk) (s : Acc) (p : Fin 8) (q : Fin 3) :
    k0_pay6 x s (ix2 p q) = s (ix2 p q) + bandSum x p q := by
  unfold k0_pay6
  refine (congrFun (shapeCast_self _ _) (ix2 p q)).trans ?_
  exact congrArg (fun z => s (ix2 p q) + z) (reduce_rows_cols x p q)

/-- The payload that adds a block of y to the second scratch. -/
theorem pay7_apply (x : Blk) (s : Acc) (p : Fin 8) (q : Fin 3) :
    k0_pay7 x s (ix2 p q) = s (ix2 p q) + bandSum x p q := by
  unfold k0_pay7
  refine (congrFun (shapeCast_self _ _) (ix2 p q)).trans ?_
  exact congrArg (fun z => s (ix2 p q) + z) (reduce_rows_cols x p q)

/-- The payload that adds a block of the squared difference to the third scratch. -/
theorem pay8_apply (x0 x1 : Blk) (s : Acc) (p : Fin 8) (q : Fin 3) :
    k0_pay8 x0 x1 s (ix2 p q) = s (ix2 p q) + bandSum (sqBlk x0 x1) p q := by
  unfold k0_pay8
  exact congrArg (fun z => s (ix2 p q) + z) (reduce_rows_cols (mulf (subf x0 x1) (subf x0 x1)) p q)

/-- The cast in front of the third scratch's store changes nothing. -/
theorem pay1_eq (v : FVec Ideal S8x3 .f32) : k0_pay1 v = v := by
  unfold k0_pay1
  exact shapeCast_self _ _

/-- The zeroing payloads are zero everywhere. -/
theorem pay3_apply (i : S8x3.Idx) : k0_pay3 (F := Ideal) i = Ideal.ofBits .f32 0x00000000#32 := by
  unfold k0_pay3
  exact congrFun (shapeCast_self _ _) i
theorem pay4_apply (i : S8x3.Idx) : k0_pay4 (F := Ideal) i = Ideal.ofBits .f32 0x00000000#32 := by
  unfold k0_pay4
  exact congrFun (shapeCast_self _ _) i
theorem pay5_apply (i : S8x3.Idx) : k0_pay5 (F := Ideal) i = Ideal.ofBits .f32 0x00000000#32 := by
  unfold k0_pay5
  exact congrFun (shapeCast_self _ _) i

/-- The final payload: position by position, the contribution of a plane from its three sums. -/
theorem pay2_apply (a b s : Acc) (i : S8x3.Idx) : k0_pay2 a b s i = weighted (a i) (b i) (s i) := by
  unfold k0_pay2 weighted
  rfl

end Cert.KernelIdeal.Payloads

end
-- ==== Proof.KernelBlocks.lean ====
/-
  The blocks the kernel's windows read, as parts of the argument arrays.

  The grid has 16 points; point t = 4 i + j works on batch tile i (batches 8 i .. 8 i + 7) and row band j
  (rows 128 j .. 128 j + 127).  Both input windows place their block at (i, 0, j, 0) in units of the block's
  extents [8, 3, 128, 512], and the output window places its [8, 3] block at (i, 0).  So position (p, q, r, k) of an
  input block is position (8 i + p, q, 128 j + r, k) of the argument.
-/
import proofs.«168246_j83459804495948_2_alg».proof.Proof.Gen.KernelIdeal.Frame.Runs
import proofs.«168246_j83459804495948_2_alg».proof.Proof.Spec
import proofs.«168246_j83459804495948_2_alg».proof.Proof.KernelPayloads
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem

namespace Cert.KernelIdeal.Blocks

open Cert.KernelIdeal Cert.KernelIdeal.Gen Cert.Spec Cert.KernelIdeal.Payloads

variable (m : (ℓ : Loc nD τ sig) → Buf (Elt Ideal) ℓ)

/-- The two argument arrays as the region finds them, and the two windows' blocks at a point. -/
abbrev argX (c : Dev nD) : Arr := V m c main_arg0
abbrev argY (c : Dev nD) : Arr := V m c main_arg1
abbrev blk0 (c : Dev nD) (t : Fin cfg0.N) : Blk := iblk m c 0 t
abbrev blk1 (c : Dev nD) (t : Fin cfg0.N) : Blk := iblk m c 1 t

/-- Batch p of batch tile i. -/
def batchOf (i : Fin 4) (p : Fin 8) : Fin 32 := ⟨8 * i.val + p.val, by omega⟩

/-- Where the three windows place their blocks at point t, decided over the 16 points. -/
theorem idx_facts : ∀ t : Fin cfg0.N,
    win0_0.index t (0 : Fin 4) = t.val / 4 ∧ win0_0.index t (1 : Fin 4) = 0
    ∧ win0_0.index t (2 : Fin 4) = t.val % 4 ∧ win0_0.index t (3 : Fin 4) = 0
    ∧ win0_1.index t (0 : Fin 4) = t.val / 4 ∧ win0_1.index t (1 : Fin 4) = 0
    ∧ win0_1.index t (2 : Fin 4) = t.val % 4 ∧ win0_1.index t (3 : Fin 4) = 0
    ∧ win0_2.index t (0 : Fin 2) = t.val / 4 ∧ win0_2.index t (1 : Fin 2) = 0 :=
  (by decide +kernel : ∀ t : Fin grid0.N, _)

/-- A block of the first argument at point 4 i + j, read at (p, q, r, k). -/
theorem iblk0_apply (c : Dev nD) (t : Fin cfg0.N) (i j : Fin 4) (ht : t.val = 4 * i.val + j.val)
    (p : Fin 8) (q : Fin 3) (r : Fin 128) (k : Fin 512) :
    blk0 m c t (ix4 p q r k) = argX m c (ix4 (batchOf i p) q (bandRow j r) k) := by
  obtain ⟨e0, e1, e2, e3, -⟩ := idx_facts t
  have hi := i.isLt
  have hj := j.isLt
  unfold blk0 argX iblk
  rw [View.read_apply]
  show V m c main_arg0 _ = V m c main_arg0 _
  refine congrArg (V m c main_arg0) ?_
  funext a
  apply Fin.ext
  match a with
  | ⟨0, _⟩ => show win0_0.index t (0 : Fin 4) * 8 + 1 * p.val = 8 * i.val + p.val; omega
  | ⟨1, _⟩ => show win0_0.index t (1 : Fin 4) * 3 + 1 * q.val = q.val; omega
  | ⟨2, _⟩ => show win0_0.index t (2 : Fin 4) * 128 + 1 * r.val = 128 * j.val + r.val; omega
  | ⟨3, _⟩ => show win0_0.index t (3 : Fin 4) * 512 + 1 * k.val = k.val; omega

/-- A block of the second argument at point 4 i + j, read at (p, q, r, k). -/
theorem iblk1_apply (c : Dev nD) (t : Fin cfg0.N) (i j : Fin 4) (ht : t.val = 4 * i.val + j.val)
    (p : Fin 8) (q : Fin 3) (r : Fin 128) (k : Fin 512) :
    blk1 m c t (ix4 p q r k) = argY m c (ix4 (batchOf i p) q (bandRow j r) k) := by
  obtain ⟨-, -, -, -, e0, e1, e2, e3, -⟩ := idx_facts t
  have hi := i.isLt
  have hj := j.isLt
  unfold blk1 argY iblk
  rw [View.read_apply]
  show V m c main_arg1 _ = V m c main_arg1 _
  refine congrArg (V m c main_arg1) ?_
  funext a
  apply Fin.ext
  match a with
  | ⟨0, _⟩ => show win0_1.index t (0 : Fin 4) * 8 + 1 * p.val = 8 * i.val + p.val; omega
  | ⟨1, _⟩ => show win0_1.index t (1 : Fin 4) * 3 + 1 * q.val = q.val; omega
  | ⟨2, _⟩ => show win0_1.index t (2 : Fin 4) * 128 + 1 * r.val = 128 * j.val + r.val; omega
  | ⟨3, _⟩ => show win0_1.index t (3 : Fin 4) * 512 + 1 * k.val = k.val; omega

/-- The band sums of the blocks at point 4 i + j are the sums of the arguments over band j of plane (8 i + p, q). -/
theorem bandSum_blk0 (c : Dev nD) (t : Fin cfg0.N) (i j : Fin 4) (ht : t.val = 4 * i.val + j.val) (p : Fin 8) (q : Fin 3) :
    bandSum (blk0 m c t) p q = ∑ r : Fin 128, ∑ k : Fin 512, argX m c (ix4 (batchOf i p) q (bandRow j r) k) := by
  unfold bandSum
  exact Finset.sum_congr rfl fun r _ => Finset.sum_congr rfl fun k _ => iblk0_apply m c t i j ht p q r k

theorem bandSum_blk1 (c : Dev nD) (t : Fin cfg0.N) (i j : Fin 4) (ht : t.val = 4 * i.val + j.val) (p : Fin 8) (q : Fin 3) :
    bandSum (blk1 m c t) p q = ∑ r : Fin 128, ∑ k : Fin 512, argY m c (ix4 (batchOf i p) q (bandRow j r) k) := by
  unfold bandSum
  exact Finset.sum_congr rfl fun r _ => Finset.sum_congr rfl fun k _ => iblk1_apply m c t i j ht p q r k

theorem bandSum_sq (c : Dev nD) (t : Fin cfg0.N) (i j : Fin 4) (ht : t.val = 4 * i.val + j.val) (p : Fin 8) (q : Fin 3) :
    bandSum (sqBlk (blk0 m c t) (blk1 m c t)) p q
      = ∑ r : Fin 128, ∑ k : Fin 512, sqDiff (argX m c) (argY m c) (ix4 (batchOf i p) q (bandRow j r) k) := by
  unfold bandSum sqBlk sqDiff
  refine Finset.sum_congr rfl fun r _ => Finset.sum_congr rfl fun k _ => ?_
  rw [iblk0_apply m c t i j ht p q r k, iblk1_apply m c t i j ht p q r k]

end Cert.KernelIdeal.Blocks

end
-- ==== Proof.KernelPieces.lean ====
/-
  What each control case of the kernel body leaves in the three scratch accumulators and in the output block,
  as compositions of the body's payloads, at any float instance.

  The body has three cases by the band coordinate j of the grid point (i, j): j = 0 zeroes the three scratches and adds
  the band's sums; 0 < j < 3 adds the band's sums to what the point before left; j = 3 does the same and then stores
  the final combination of the three scratches into the output block.  Every store covers its whole buffer, so what
  a buffer ends holding is the payload of its last store, and a load after a store reads that store's payload.
-/
import proofs.«168246_j83459804495948_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- At first band's point (the scratches are zeroed, then the band is added): scratch 0, the running plane sums of the first argument, ends at its one covering store's payload. -/
theorem scratch_A_0 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : cond0_0 i) (hc1 : ¬cond0_1 i)
    (x0 x1 : Vec F S8x3x128x512 .f32) :
    sout0_A_0 c i arg2 harg2 arg3 harg3 arg4 harg4 arg5 harg5 arg6 harg6 arg7 harg7 hc0 hc1 x0 x1 = k0_pay6 x0 (k0_pay3 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S8x3) hz2]
  simp only [View.readAt_eq_ld, harg2.read_unread, harg3.read_unread, harg5.read_unread, harg6.read_unread, harg7.read_unread,
    View.ld_unit_zero (S := S8x3x128x512) hz4, View.ld_unit_zero (S := S8x3) hz2, View.readCov_unit_zero (S := S8x3) _ hz2]

/-- At first band's point (the scratches are zeroed, then the band is added): scratch 1, the running plane sums of the second argument, ends at its one covering store's payload. -/
theorem scratch_A_1 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : cond0_0 i) (hc1 : ¬cond0_1 i)
    (x0 x1 : Vec F S8x3x128x512 .f32) :
    sout0_A_1 c i arg2 harg2 arg3 harg3 arg4 harg4 arg5 harg5 arg6 harg6 arg7 harg7 hc0 hc1 x0 x1 = k0_pay7 x1 (k0_pay4 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S8x3) hz2]
  simp only [View.readAt_eq_ld, harg2.read_unread, harg3.read_unread, harg5.read_unread, harg6.read_unread, harg7.read_unread,
    View.ld_unit_zero (S := S8x3x128x512) hz4, View.ld_unit_zero (S := S8x3) hz2, View.readCov_unit_zero (S := S8x3) _ hz2]

/-- At first band's point (the scratches are zeroed, then the band is added): scratch 2, the running plane sums of the squared difference, ends at its one covering store's payload. -/
theorem scratch_A_2 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : cond0_0 i) (hc1 : ¬cond0_1 i)
    (x0 x1 : Vec F S8x3x128x512 .f32) :
    sout0_A_2 c i arg2 harg2 arg3 harg3 arg4 harg4 arg5 harg5 arg6 harg6 arg7 harg7 hc0 hc1 x0 x1 = k0_pay1 (k0_pay8 x0 x1 (k0_pay5 (F := F))) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S8x3) hz2]
  simp only [View.readAt_eq_ld, harg2.read_unread, harg3.read_unread, harg5.read_unread, harg6.read_unread, harg7.read_unread,
    View.ld_unit_zero (S := S8x3x128x512) hz4, View.ld_unit_zero (S := S8x3) hz2, View.readCov_unit_zero (S := S8x3) _ hz2]

/-- At a middle band's point (the band is added to what the point before left): scratch 0, the running plane sums of the first argument, ends at its one covering store's payload. -/
theorem scratch_B_0 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : ¬cond0_0 i) (hc1 : ¬cond0_1 i)
    (x0 x1 : Vec F S8x3x128x512 .f32) (xs0 xs1 xs2 : Vec F S8x3 .f32) :
    sout0_B_0 c i arg2 harg2 arg3 harg3 arg4 harg4 arg5 harg5 arg6 harg6 arg7 harg7 hc0 hc1 x0 x1 xs0 xs1 xs2 = k0_pay6 x0 (xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S8x3) hz2]
  simp only [View.readAt_eq_ld, harg2.read_unread, harg3.read_unread, harg5.read_unread, harg6.read_unread, harg7.read_unread,
    View.ld_unit_zero (S := S8x3x128x512) hz4, View.ld_unit_zero (S := S8x3) hz2, View.readCov_unit_zero (S := S8x3) _ hz2]

/-- At a middle band's point (the band is added to what the point before left): scratch 1, the running plane sums of the second argument, ends at its one covering store's payload. -/
theorem scratch_B_1 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : ¬cond0_0 i) (hc1 : ¬cond0_1 i)
    (x0 x1 : Vec F S8x3x128x512 .f32) (xs0 xs1 xs2 : Vec F S8x3 .f32) :
    sout0_B_1 c i arg2 harg2 arg3 harg3 arg4 harg4 arg5 harg5 arg6 harg6 arg7 harg7 hc0 hc1 x0 x1 xs0 xs1 xs2 = k0_pay7 x1 (xs1) := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S8x3) hz2]
  simp only [View.readAt_eq_ld, harg2.read_unread, harg3.read_unread, harg5.read_unread, harg6.read_unread, harg7.read_unread,
    View.ld_unit_zero (S := S8x3x128x512) hz4, View.ld_unit_zero (S := S8x3) hz2, View.readCov_unit_zero (S := S8x3) _ hz2]

/-- At a middle band's point (the band is added to what the point before left): scratch 2, the running plane sums of the squared difference, ends at its one covering store's payload. -/
theorem scratch_B_2 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : ¬cond0_0 i) (hc1 : ¬cond0_1 i)
    (x0 x1 : Vec F S8x3x128x512 .f32) (xs0 xs1 xs2 : Vec F S8x3 .f32) :
    sout0_B_2 c i arg2 harg2 arg3 harg3 arg4 harg4 arg5 harg5 arg6 harg6 arg7 harg7 hc0 hc1 x0 x1 xs0 xs1 xs2 = k0_pay1 (k0_pay8 x0 x1 (xs2)) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S8x3) hz2]
  simp only [View.readAt_eq_ld, harg2.read_unread, harg3.read_unread, harg5.read_unread, harg6.read_unread, harg7.read_unread,
    View.ld_unit_zero (S := S8x3x128x512) hz4, View.ld_unit_zero (S := S8x3) hz2, View.readCov_unit_zero (S := S8x3) _ hz2]

/-- At the last band's point (the band is added to what the point before left): scratch 0, the running plane sums of the first argument, ends at its one covering store's payload. -/
theorem scratch_C_0 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : ¬cond0_0 i) (hc1 : cond0_1 i)
    (x0 x1 : Vec F S8x3x128x512 .f32) (xs0 xs1 xs2 : Vec F S8x3 .f32) :
    sout0_C_0 c i arg2 harg2 arg3 harg3 arg4 harg4 arg5 harg5 arg6 harg6 arg7 harg7 hc0 hc1 x0 x1 xs0 xs1 xs2 = k0_pay6 x0 (xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S8x3) hz2]
  simp only [View.readAt_eq_ld, harg2.read_unread, harg3.read_unread, harg5.read_unread, harg6.read_unread, harg7.read_unread,
    View.ld_unit_zero (S := S8x3x128x512) hz4, View.ld_unit_zero (S := S8x3) hz2, View.readCov_unit_zero (S := S8x3) _ hz2]

/-- At the last band's point (the band is added to what the point before left): scratch 1, the running plane sums of the second argument, ends at its one covering store's payload. -/
theorem scratch_C_1 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : ¬cond0_0 i) (hc1 : cond0_1 i)
    (x0 x1 : Vec F S8x3x128x512 .f32) (xs0 xs1 xs2 : Vec F S8x3 .f32) :
    sout0_C_1 c i arg2 harg2 arg3 harg3 arg4 harg4 arg5 harg5 arg6 harg6 arg7 harg7 hc0 hc1 x0 x1 xs0 xs1 xs2 = k0_pay7 x1 (xs1) := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S8x3) hz2]
  simp only [View.readAt_eq_ld, harg2.read_unread, harg3.read_unread, harg5.read_unread, harg6.read_unread, harg7.read_unread,
    View.ld_unit_zero (S := S8x3x128x512) hz4, View.ld_unit_zero (S := S8x3) hz2, View.readCov_unit_zero (S := S8x3) _ hz2]

/-- At the last band's point (the band is added to what the point before left): scratch 2, the running plane sums of the squared difference, ends at its one covering store's payload. -/
theorem scratch_C_2 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : ¬cond0_0 i) (hc1 : cond0_1 i)
    (x0 x1 : Vec F S8x3x128x512 .f32) (xs0 xs1 xs2 : Vec F S8x3 .f32) :
    sout0_C_2 c i arg2 harg2 arg3 harg3 arg4 harg4 arg5 harg5 arg6 harg6 arg7 harg7 hc0 hc1 x0 x1 xs0 xs1 xs2 = k0_pay1 (k0_pay8 x0 x1 (xs2)) := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S8x3) hz2]
  simp only [View.readAt_eq_ld, harg2.read_unread, harg3.read_unread, harg5.read_unread, harg6.read_unread, harg7.read_unread,
    View.ld_unit_zero (S := S8x3x128x512) hz4, View.ld_unit_zero (S := S8x3) hz2, View.readCov_unit_zero (S := S8x3) _ hz2]

/-- At the last band's point the output block is the final combination of the three scratches as that point leaves
    them: each is read back through its covering store. -/
theorem out_C (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : ¬cond0_0 i) (hc1 : cond0_1 i)
    (x0 x1 : Vec F S8x3x128x512 .f32) (xs0 xs1 xs2 : Vec F S8x3 .f32) :
    out0_C_2 c i arg2 harg2 arg3 harg3 arg4 harg4 arg5 harg5 arg6 harg6 arg7 harg7 hc0 hc1 x0 x1 xs0 xs1 xs2 = k0_pay2 (k0_pay6 x0 xs0) (k0_pay7 x1 xs1) (k0_pay1 (k0_pay8 x0 x1 xs2)) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S8x3) hz2]
  simp only [View.readAt_eq_ld, harg2.read_unread, harg3.read_unread, harg5.read_unread, harg6.read_unread, harg7.read_unread,
    View.ld_unit_zero (S := S8x3x128x512) hz4, View.ld_unit_zero (S := S8x3) hz2, View.readCov_unit_zero (S := S8x3) _ hz2]

end Cert.KernelIdeal.Pieces

end
-- ==== Proof.KernelAccum.lean ====
/-
  What the three scratch accumulators and the output block hold after a grid point, as pure functions of the blocks.

  One step takes the three running plane sums and a pair of blocks and adds the band's shares.  At a band-0 point the
  step starts from zero; at every other point it starts from what the point before left.  So after the last band's
  point 4 i + 3 the scratches hold four steps from zero over the blocks of points 4 i, 4 i + 1, 4 i + 2, 4 i + 3, and the
  output block is the final combination of them.
-/
import proofs.«168246_j83459804495948_2_alg».proof.Proof.Gen.KernelIdeal.Frame
import proofs.«168246_j83459804495948_2_alg».proof.Proof.KernelPieces
import proofs.«168246_j83459804495948_2_alg».proof.Proof.KernelPayloads
import proofs.«168246_j83459804495948_2_alg».proof.Proof.KernelBlocks

set_option maxRecDepth 16384

noncomputable section

open Idealize.ShloMosaic Idealize.ShloMosaic.TcCoe Idealize.SL.Sem

namespace Cert.KernelIdeal.Accum

open Cert.KernelIdeal Cert.KernelIdeal.Gen Cert.KernelIdeal.Payloads Cert.KernelIdeal.Pieces Cert.KernelIdeal.Blocks

variable (m : (ℓ : Loc nD τ sig) → Buf (Elt Ideal) ℓ)

/-- The three running sums. -/
abbrev Acc3 := Acc × Acc × Acc

/-- One step: add a pair of blocks' shares to the three running sums. -/
def step (s : Acc3) (x0 x1 : Blk) : Acc3 := (k0_pay6 x0 s.1, k0_pay7 x1 s.2.1, k0_pay1 (k0_pay8 x0 x1 s.2.2))

/-- The start: the three zero blocks. -/
def zero3 : Acc3 := (k0_pay3 (F := Ideal), k0_pay4 (F := Ideal), k0_pay5 (F := Ideal))

/-- The point before. -/
def pred (t : Fin cfg0.N) : Fin cfg0.N := ⟨t.val - 1, Nat.lt_of_le_of_lt (Nat.sub_le _ _) t.isLt⟩

/-- After a band-0 point: one step from zero. -/
theorem scr_A (c : Dev nD) (t : Fin cfg0.N) (h0 : t.val % 4 = 0) :
    (outsAt0 m c t.val t.isLt).2 = step zero3 (blk0 m c t) (blk1 m c t) := by
  have h1 : ¬t.val % 4 = 3 := by omega
  rw [outsAt0_A m c t h0 h1]
  exact Prod.ext
    (scratch_A_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (blk0 m c t) (blk1 m c t))
    (Prod.ext
      (scratch_A_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (blk0 m c t) (blk1 m c t))
      (scratch_A_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (blk0 m c t) (blk1 m c t)))

/-- After a middle band's point: one step from what the point before left. -/
theorem scr_B (c : Dev nD) (t : Fin cfg0.N) (h0 : ¬t.val % 4 = 0) (h1 : ¬t.val % 4 = 3) :
    (outsAt0 m c t.val t.isLt).2 = step (outsAt0 m c (pred t).val (pred t).isLt).2 (blk0 m c t) (blk1 m c t) := by
  rw [outsAt0_B m c t h0 h1]
  exact Prod.ext
    (scratch_B_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (blk0 m c t) (blk1 m c t) (outsAt0 m c (pred t).val (pred t).isLt).2.1 (outsAt0 m c (pred t).val (pred t).isLt).2.2.1 (outsAt0 m c (pred t).val (pred t).isLt).2.2.2)
    (Prod.ext
      (scratch_B_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (blk0 m c t) (blk1 m c t) (outsAt0 m c (pred t).val (pred t).isLt).2.1 (outsAt0 m c (pred t).val (pred t).isLt).2.2.1 (outsAt0 m c (pred t).val (pred t).isLt).2.2.2)
      (scratch_B_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (blk0 m c t) (blk1 m c t) (outsAt0 m c (pred t).val (pred t).isLt).2.1 (outsAt0 m c (pred t).val (pred t).isLt).2.2.1 (outsAt0 m c (pred t).val (pred t).isLt).2.2.2))

/-- After the last band's point: one step from what the point before left, -/
theorem scr_C (c : Dev nD) (t : Fin cfg0.N) (h0 : ¬t.val % 4 = 0) (h1 : t.val % 4 = 3) :
    (outsAt0 m c t.val t.isLt).2 = step (outsAt0 m c (pred t).val (pred t).isLt).2 (blk0 m c t) (blk1 m c t) := by
  rw [outsAt0_C m c t h0 h1]
  exact Prod.ext
    (scratch_C_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (blk0 m c t) (blk1 m c t) (outsAt0 m c (pred t).val (pred t).isLt).2.1 (outsAt0 m c (pred t).val (pred t).isLt).2.2.1 (outsAt0 m c (pred t).val (pred t).isLt).2.2.2)
    (Prod.ext
      (scratch_C_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (blk0 m c t) (blk1 m c t) (outsAt0 m c (pred t).val (pred t).isLt).2.1 (outsAt0 m c (pred t).val (pred t).isLt).2.2.1 (outsAt0 m c (pred t).val (pred t).isLt).2.2.2)
      (scratch_C_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (blk0 m c t) (blk1 m c t) (outsAt0 m c (pred t).val (pred t).isLt).2.1 (outsAt0 m c (pred t).val (pred t).isLt).2.2.1 (outsAt0 m c (pred t).val (pred t).isLt).2.2.2))

/-- and the output block is the final combination of the three sums that step leaves. -/
theorem out_C_step (c : Dev nD) (t : Fin cfg0.N) (h0 : ¬t.val % 4 = 0) (h1 : t.val % 4 = 3) :
    (outsAt0 m c t.val t.isLt).1
      = k0_pay2 (step (outsAt0 m c (pred t).val (pred t).isLt).2 (blk0 m c t) (blk1 m c t)).1
          (step (outsAt0 m c (pred t).val (pred t).isLt).2 (blk0 m c t) (blk1 m c t)).2.1
          (step (outsAt0 m c (pred t).val (pred t).isLt).2 (blk0 m c t) (blk1 m c t)).2.2 := by
  rw [outsAt0_C m c t h0 h1]
  exact out_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (blk0 m c t) (blk1 m c t) (outsAt0 m c (pred t).val (pred t).isLt).2.1 (outsAt0 m c (pred t).val (pred t).isLt).2.2.1 (outsAt0 m c (pred t).val (pred t).isLt).2.2.2

/-- Four steps from zero over the blocks of the four points that end at t. -/
def acc4 (c : Dev nD) (t : Fin cfg0.N) : Acc3 :=
  step (step (step (step zero3
    (blk0 m c (pred (pred (pred t)))) (blk1 m c (pred (pred (pred t)))))
    (blk0 m c (pred (pred t))) (blk1 m c (pred (pred t))))
    (blk0 m c (pred t)) (blk1 m c (pred t)))
    (blk0 m c t) (blk1 m c t)

/-- At the last band's point the scratches hold the four steps, -/
theorem scr_last (c : Dev nD) (t : Fin cfg0.N) (h3 : t.val % 4 = 3) :
    (outsAt0 m c t.val t.isLt).2 = acc4 m c t := by
  have hN : t.val < 16 := lt_of_lt_of_eq t.isLt N_0
  have s0 := scr_C m c t (by omega) h3
  have s1 := scr_B m c (pred t) (by show ¬(t.val - 1) % 4 = 0; omega) (by show ¬(t.val - 1) % 4 = 3; omega)
  have s2 := scr_B m c (pred (pred t)) (by show ¬(t.val - 1 - 1) % 4 = 0; omega) (by show ¬(t.val - 1 - 1) % 4 = 3; omega)
  have s3 := scr_A m c (pred (pred (pred t))) (by show (t.val - 1 - 1 - 1) % 4 = 0; omega)
  rw [s0, s1, s2, s3]
  rfl

/-- and the output block is their final combination. -/
theorem out_last (c : Dev nD) (t : Fin cfg0.N) (h3 : t.val % 4 = 3) :
    (outsAt0 m c t.val t.isLt).1 = k0_pay2 (acc4 m c t).1 (acc4 m c t).2.1 (acc4 m c t).2.2 := by
  have h0 : ¬t.val % 4 = 0 := by omega
  have e := out_C_step m c t h0 h3
  have s := (scr_C m c t h0 h3).symm.trans (scr_last m c t h3)
  rw [s] at e
  exact e

end Cert.KernelIdeal.Accum

end
-- ==== Proof.KernelValue.lean ====
/-
  The kernel's result is the specification's total.

  At the last band's point 4 i + 3 the three scratches hold, at (p, q), zero plus the four bands' shares of plane
  (8 i + p, q), added one band after the other: that is the plane's sum.  The output block stored there is therefore
  the plane contributions of batches 8 i .. 8 i + 7, and the point writes it back as block i of the [32, 3] array.  The
  four writing points cover the array, so the array ends holding every plane's contribution, and the host's sum over
  it, from zero, is the total.
-/
import proofs.«168246_j83459804495948_2_alg».proof.Proof.Gen.KernelIdeal.Frame
import proofs.«168246_j83459804495948_2_alg».proof.Proof.Spec
import proofs.«168246_j83459804495948_2_alg».proof.Proof.KernelPayloads
import proofs.«168246_j83459804495948_2_alg».proof.Proof.KernelBlocks
import proofs.«168246_j83459804495948_2_alg».proof.Proof.KernelAccum
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KValue

open Cert.KernelIdeal Cert.KernelIdeal.Gen Cert.Spec Cert.KernelIdeal.Payloads Cert.KernelIdeal.Blocks Cert.KernelIdeal.Accum

variable (m : (ℓ : Loc nD τ sig) → Buf (Elt Ideal) ℓ) (ρ : Dev nD → PrngReg)

/-! ## Four steps from zero, at an index -/

theorem steps_fst (a0 a1 a2 a3 b0 b1 b2 b3 : Blk) (p : Fin 8) (q : Fin 3) :
    (step (step (step (step zero3 a0 b0) a1 b1) a2 b2) a3 b3).1 (ix2 p q)
      = (((Ideal.ofBits .f32 0x00000000#32 + bandSum a0 p q) + bandSum a1 p q) + bandSum a2 p q) + bandSum a3 p q := by
  simp only [step, zero3, pay6_apply, pay3_apply]

theorem steps_snd (a0 a1 a2 a3 b0 b1 b2 b3 : Blk) (p : Fin 8) (q : Fin 3) :
    (step (step (step (step zero3 a0 b0) a1 b1) a2 b2) a3 b3).2.1 (ix2 p q)
      = (((Ideal.ofBits .f32 0x00000000#32 + bandSum b0 p q) + bandSum b1 p q) + bandSum b2 p q) + bandSum b3 p q := by
  simp only [step, zero3, pay7_apply, pay4_apply]

theorem steps_trd (a0 a1 a2 a3 b0 b1 b2 b3 : Blk) (p : Fin 8) (q : Fin 3) :
    (step (step (step (step zero3 a0 b0) a1 b1) a2 b2) a3 b3).2.2 (ix2 p q)
      = (((Ideal.ofBits .f32 0x00000000#32 + bandSum (sqBlk a0 b0) p q) + bandSum (sqBlk a1 b1) p q)
          + bandSum (sqBlk a2 b2) p q) + bandSum (sqBlk a3 b3) p q := by
  simp only [step, zero3, pay1_eq, pay8_apply, pay5_apply]

/-! ## The output block at a last-band point -/

/-- At point 4 i + 3 the output block holds, at (p, q), plane (8 i + p, q)'s contribution. -/
theorem out_value (c : Dev nD) (t : Fin cfg0.N) (i : Fin 4) (ht : t.val = 4 * i.val + 3) (p : Fin 8) (q : Fin 3) :
    (outsAt0 m c t.val t.isLt).1 (ix2 p q) = perPlane (argX m c) (argY m c) (ix2 (batchOf i p) q) := by
  have hi := i.isLt
  have h3 : t.val % 4 = 3 := by omega
  have e3 : t.val = 4 * i.val + (3 : Fin 4).val := ht
  have e2 : (pred t).val = 4 * i.val + (2 : Fin 4).val := by show t.val - 1 = 4 * i.val + 2; omega
  have e1 : (pred (pred t)).val = 4 * i.val + (1 : Fin 4).val := by show t.val - 1 - 1 = 4 * i.val + 1; omega
  have e0 : (pred (pred (pred t))).val = 4 * i.val + (0 : Fin 4).val := by show t.val - 1 - 1 - 1 = 4 * i.val + 0; omega
  rw [out_last m c t h3, pay2_apply]
  unfold acc4
  rw [steps_fst, steps_snd, steps_trd]
  rw [bandSum_blk0 m c _ i 0 e0 p q, bandSum_blk0 m c _ i 1 e1 p q, bandSum_blk0 m c _ i 2 e2 p q, bandSum_blk0 m c t i 3 e3 p q,
    bandSum_blk1 m c _ i 0 e0 p q, bandSum_blk1 m c _ i 1 e1 p q, bandSum_blk1 m c _ i 2 e2 p q, bandSum_blk1 m c t i 3 e3 p q,
    bandSum_sq m c _ i 0 e0 p q, bandSum_sq m c _ i 1 e1 p q, bandSum_sq m c _ i 2 e2 p q, bandSum_sq m c t i 3 e3 p q]
  rw [bands_chain (fun h => ∑ k : Fin 512, argX m c (ix4 (batchOf i p) q h k)),
    bands_chain (fun h => ∑ k : Fin 512, argY m c (ix4 (batchOf i p) q h k)),
    bands_chain (fun h => ∑ k : Fin 512, sqDiff (argX m c) (argY m c) (ix4 (batchOf i p) q h k))]
  rfl

/-! ## The [32, 3] array after the region -/

/-- Every plane's contribution, as contents of the region's result array. -/
abbrev planes (c : Dev nD) : Buf (Elt Ideal) ((c : Thread nD τ).loc main_v0) :=
  fun j => perPlane (argX m c) (argY m c) j

/-- What a writing point writes back is its block of the planes' contributions. -/
theorem flushed_eq (c : Dev nD) (t : Fin cfg0.N) (hf : (cfg0.win 2).flush t = true) :
    (dats m 0 c).flushed 2 t = ((cfg0.win 2).blk t).view.read (Elt Ideal) (planes m c) := by
  have h3 : t.val % 4 = 3 := (flush0_2 t).mp hf
  have hN : t.val < 16 := lt_of_lt_of_eq t.isLt N_0
  obtain ⟨-, -, -, -, -, -, -, -, e0, e1⟩ := idx_facts t
  show (cfg0.win 2).cut (grid0.coords t) ((dats m 0 c).after 2 t) = _
  rw [after0_2]
  funext y
  obtain ⟨p, q, rfl⟩ : ∃ (p : Fin 8) (q : Fin 3), y = ix2 p q := ⟨y 0, y 1, eq_ix2 y⟩
  show (outsAt0 m c t.val t.isLt).1 (ix2 p q) = planes m c (((cfg0.win 2).blk t).view.emb (ix2 p q))
  rw [out_value m c t ⟨t.val / 4, by omega⟩ (by show t.val = 4 * (t.val / 4) + 3; omega) p q]
  refine congrArg (perPlane (argX m c) (argY m c)) ?_
  funext a
  apply Fin.ext
  match a with
  | ⟨0, _⟩ => show 8 * (t.val / 4) + p.val = win0_2.index t (0 : Fin 2) * 8 + 1 * p.val; omega
  | ⟨1, _⟩ => show q.val = win0_2.index t (1 : Fin 2) * 3 + 1 * q.val; omega

/-- An index of the array is in a point's block iff each coordinate is in the block's range. -/
theorem mem_blk (t : Fin cfg0.N) (i : S32x3.Idx) :
    i ∈ ((cfg0.win 2).blk t).view.set ↔ ∀ a : Fin 2, win0_2.index t a * S8x3.size a ≤ (i a).val ∧ (i a).val < win0_2.index t a * S8x3.size a + S8x3.size a := by
  show i ∈ ((View.whole main_v0).slice (win0_2.rect t)).set ↔ _
  rw [View.set_slice_whole, Rect.mem_set_unit]
  exact Iff.rfl

/-- The array ends holding every plane's contribution: batch b's row is written by point 4 (b / 8) + 3. -/
theorem final (c : Dev nD) : (dats m 0 c).arrAt 2 cfg0.N = planes m c :=
  (dats m 0 c).arrAt_eq_of_cover 2 (planes m c) (flushed_eq m c) fun i => by
    have hi0 : (i 0).val < 32 := (i 0).isLt
    have hi1 : (i 1).val < 3 := (i 1).isLt
    have hlt : 4 * ((i 0).val / 8) + 3 < cfg0.N := by rw [show cfg0.N = 16 from N_0]; omega
    refine ⟨⟨4 * ((i 0).val / 8) + 3, hlt⟩, (flush0_2 _).mpr (by show (4 * ((i 0).val / 8) + 3) % 4 = 3; omega), ?_⟩
    rw [mem_blk]
    obtain ⟨-, -, -, -, -, -, -, -, e0, e1⟩ := idx_facts ⟨4 * ((i 0).val / 8) + 3, hlt⟩
    have e0' : win0_2.index ⟨4 * ((i 0).val / 8) + 3, hlt⟩ (0 : Fin 2) = (4 * ((i 0).val / 8) + 3) / 4 := e0
    intro a
    match a with
    | ⟨0, _⟩ =>
      show win0_2.index ⟨4 * ((i 0).val / 8) + 3, hlt⟩ (0 : Fin 2) * 8 ≤ (i 0).val ∧ (i 0).val < win0_2.index ⟨4 * ((i 0).val / 8) + 3, hlt⟩ (0 : Fin 2) * 8 + 8
      omega
    | ⟨1, _⟩ =>
      show win0_2.index ⟨4 * ((i 0).val / 8) + 3, hlt⟩ (1 : Fin 2) * 3 ≤ (i 1).val ∧ (i 1).val < win0_2.index ⟨4 * ((i 0).val / 8) + 3, hlt⟩ (1 : Fin 2) * 3 + 3
      omega

/-! ## The host's sum after the region, and the run -/

/-- The program's result after the region: the host's sum of the [32, 3] array from zero, which is the total. -/
theorem tail_eq (c : Dev nD) :
    Pipeline.afterTail₀ cfgs (dats m) 0 (V0 m) [hostOps1] c main_v1 = fun _ => total (argX m c) (argY m c) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = planes m c :=
    (Pipeline.withArrays_arr spec0 launch0.win.arr_inj c _ _ 2).trans (final m c)
  rw [hw]
  funext x
  refine (hostReduceAdd_apply (planes m c) _ _ _ x).trans ?_
  refine (Ideal.hostReduceAdd_total reducesTo_S32x3_S_d0_1 (fun b => b.elim0) (planes m c) _ x).trans ?_
  rfl

/-- Every weakly fair execution of the idealized kernel's program ends with the result at the total of the two
    argument arrays, and the arguments unchanged. -/
theorem run : θ_run defs (onTc (τ := τ) (main (F := Ideal))) ⟨m, fun _ => 0, ρ⟩ fun r => ∀ c : Dev nD,
      r.2.mem ((c.tc : Thread nD τ).loc main_v1)
        = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 (Pipeline.mem_restRefs_of main_v1 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KValue

end
-- ==== Proof.lean ====
/-
  The certificate of the kernel against its reference.

  Both programs compute, from two arrays x, y : [32, 3, 512, 512], the sum over the 96 image planes (b, c) of
      (Sq / 2^18) * exp (2 * log1p (|P - Gt| / |Gt + 1|)),
  where P, Gt and Sq are the plane's sums of x, of y and of (x - y)^2.  The reference takes each plane sum in one
  two-axis sum and divides by 2^18; the kernel walks a 4 x 4 grid of (batch tile, row band), keeps the three plane sums
  of a batch tile in scratch accumulators across the four bands, multiplies by 2^-18 and stores the tile's 8 x 3
  contributions after the last band; the host then adds up the [32, 3] array.  On the extended reals the two are one
  function: sums regroup freely, and the quotient by 2^18 is the product with 2^-18 (Proof/Spec.lean).

  The three frames are the generated frame runs (the reference's is its generated run with the result dropped); the
  idealization rewrote nothing; the value claim joins the kernel's run (Proof/KernelValue.lean) and the reference's
  run (Proof/RefValue.lean) at the specification's total.  The precondition is never opened: no step needs finiteness.
-/
import proofs.«168246_j83459804495948_2_alg».proof.Defs
import proofs.«168246_j83459804495948_2_alg».proof.Proof.Gen.Kernel
import proofs.«168246_j83459804495948_2_alg».proof.Proof.Gen.Kernel.Skeleton
import proofs.«168246_j83459804495948_2_alg».proof.Proof.Gen.Kernel.Launch
import proofs.«168246_j83459804495948_2_alg».proof.Proof.Gen.Kernel.Points
import proofs.«168246_j83459804495948_2_alg».proof.Proof.Gen.Kernel.Frame
import proofs.«168246_j83459804495948_2_alg».proof.Proof.Gen.KernelIdeal
import proofs.«168246_j83459804495948_2_alg».proof.Proof.Gen.KernelIdeal.Skeleton
import proofs.«168246_j83459804495948_2_alg».proof.Proof.Gen.KernelIdeal.Launch
import proofs.«168246_j83459804495948_2_alg».proof.Proof.Gen.KernelIdeal.Points
import proofs.«168246_j83459804495948_2_alg».proof.Proof.Gen.KernelIdeal.Frame
import proofs.«168246_j83459804495948_2_alg».proof.Proof.Gen.ReferenceIdeal
import proofs.«168246_j83459804495948_2_alg».proof.Proof.Gen.Pre_finite_inputs
import proofs.«168246_j83459804495948_2_alg».proof.Proof.Gen.ReferenceIdeal.Run
import proofs.«168246_j83459804495948_2_alg».proof.Proof.Gen.ReferenceIdeal.Read
import proofs.«168246_j83459804495948_2_alg».proof.Proof.Spec
import proofs.«168246_j83459804495948_2_alg».proof.Proof.RefValue
import proofs.«168246_j83459804495948_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result at the total of the argument arrays, which agree. -/
theorem algebraic : Cert.algebraic_KernelIdeal_ReferenceIdeal := by
  intro m ρ m' ρ' _ hagree
  refine ⟨fun c => fun _ => Cert.Spec.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
